-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x4096 : Shape := ⟨2, ![4096, 4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S1024x4096 .f32) (main_arg1 : FVec F S1024x4096 .f32) (main_arg2 : FVec F S4096x4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  main_v13
-- ==== Kernel.lean ====
abbrev S1024x4096 : Shape := ⟨2, ![1024, 4096]⟩
abbrev S4096x4096 : Shape := ⟨2, ![4096, 4096]⟩
abbrev S1024x512 : Shape := ⟨2, ![1024, 512]⟩
abbrev S512x4096 : Shape := ⟨2, ![512, 4096]⟩
abbrev S256x4096 : Shape := ⟨2, ![256, 4096]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S4096x4096, .f32⟩
  | .hbm, ⟨3, _⟩ => ⟨S1024x4096, .f32⟩
  | .local _ .vmem, ⟨0, _⟩ => ⟨S1024x512, .f32⟩
  | .local _ .vmem, ⟨1, _⟩ => ⟨S1024x512, .f32⟩
  | .local _ .vmem, ⟨2, _⟩ => ⟨S1024x4096, .f32⟩
  | .local _ .vmem, ⟨3, _⟩ => ⟨S512x4096, .f32⟩
  | .local _ .vmem, ⟨4, _⟩ => ⟨S512x4096, .f32⟩
  | .local _ .vmem, ⟨5, _⟩ => ⟨S1024x512, .f32⟩
  | .local _ .vmem, ⟨6, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let c0_6 : Index := 0#32
  let arg0 : BitVec 32 := BitVec.ofNat 32 (i 0).val
  let c512_i32 : BitVec 32 := 512#32
  let v7 : BitVec 32 := Scalar.muli arg0 c512_i32
  let v8 : BitVec 32 := Scalar.addi v7 c0_i32
  let v9 : Index := Scalar.indexCast v8
  ![0, v9.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024x4096_S1024x4096_0_0 : ∀ a, (![0, 0] : Fin 2 → Nat) a + S1024x4096.size a ≤ S1024x4096.size a
  h_S1024x4096 : 0 < S1024x4096.numel
  inb_S512x4096_S256x4096_0_0 : ∀ a, (![0, 0] : Fin 2 → Nat) a + S256x4096.size a ≤ S512x4096.size a
  h_S256x4096 : 0 < S256x4096.numel
  inb_S1024x512_S1024x256_0_0 : ∀ a, (![0, 0] : Fin 2 → Nat) a + S1024x256.size a ≤ S1024x512.size a
  h_S1024x256 : 0 < S1024x256.numel
  inb_S512x4096_S256x4096_256_0 : ∀ a, (![256, 0] : Fin 2 → Nat) a + S256x4096.size a ≤ S512x4096.size a
  inb_S1024x512_S1024x256_0_256 : ∀ a, (![0, 256] : Fin 2 → Nat) a + S1024x256.size a ≤ S1024x512.size a
  dot_S1024x4096_S256x4096_S1024x256_1_1_0_0_n_n_wf : DotDims.WF S1024x4096 S256x4096 S1024x256 [1] [1] [0] [0] [] []
  hrank0 : 0 < grid0.rank
  k0_off1_inb : ∀ i : grid0.Coords, ∀ (r : Fin 2), ∀ a, (k0_off1 i (BitVec.ofNat 32 (256 * r.val))) a + S1024x256.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x4096.size a
  hwx0_0 : ∀ i : grid0.Coords, EltTy.bits .f32 = 32 ∨ (Rect.block (s := S1024x4096) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .f32 = 32 ∨ (Rect.block (s := S1024x4096) S1024x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x4096.size a
  hwx0_3 : ∀ i : grid0.Coords, EltTy.bits .f32 = 32 ∨ (Rect.block (s := S1024x4096) S1024x512.size (cc0_transform_3 i) (hinb0_3 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S4096x4096 : Shape := ⟨2, ![4096, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S4096x4096, .f32⟩
  | .hbm, ⟨3, _⟩ => ⟨S4096x4096, .f32⟩
  | .hbm, ⟨4, _⟩ => ⟨S1024x4096, .f32⟩
  | .hbm, ⟨5, _⟩ => ⟨S1024x4096, .f32⟩
  | .hbm, ⟨6, _⟩ => ⟨S_, .f32⟩
  | .hbm, ⟨7, _⟩ => ⟨S1024x4096, .f32⟩
  | .hbm, ⟨8, _⟩ => ⟨S1024x4096, .f32⟩
  | .hbm, ⟨9, _⟩ => ⟨S1024x4096, .f32⟩
  | .hbm, ⟨10, _⟩ => ⟨S_, .f32⟩
  | .hbm, ⟨11, _⟩ => ⟨S1024x4096, .f32⟩
  | .hbm, ⟨12, _⟩ => ⟨S1024x4096, .f32⟩
  | .hbm, ⟨13, _⟩ => ⟨S_, .f32⟩
  | .hbm, ⟨14, _⟩ => ⟨S1024x4096, .f32⟩
  | .hbm, ⟨15, _⟩ => ⟨S1024x4096, .f32⟩
  | .hbm, ⟨16, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S_S1024x4096 : S_.BroadcastsInDim S1024x4096 (![] : Fin 0 → Fin S1024x4096.rank)
  dot_S1024x4096_S4096x4096_S1024x4096_1_0_0_1_n_n_wf : DotDims.WF S1024x4096 S4096x4096 S1024x4096 [1] [0] [0] [1] [] []

variable [Facts₀]

def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.Spec.lean ====
/-
  The reservoir update as ONE function of its three argument arrays, over the extended reals.

  Write u for the projected input and s for the reservoir state (both 1024 × 4096: a batch row b, a unit n),
  and w for the recurrent weights (4096 × 4096; row n holds the weights INTO unit n, so the pre-activation
  contracts s against the ROWS of w: it is the product s · wᵀ). For a batch row b and a unit n

      next (b, n) = leak · tanh ((Σ_k s (b, k) · w (n, k) + u (b, n)) + bias) + keep · s (b, n)

  with the sum over the 4096 units k, grouped exactly as written (the input is added to the contraction first, the
  bias second). leak, bias and keep are the f32 constants nearest 0.6, 1.6 and 0.4; they stay the binary words
  they are printed as: each of the two programs compared against this function prints the same three words, so their
  values are never needed.
-/
import Idealize.ShloMosaic.PureOps.Ideal
import Idealize.ShloMosaic.Lib.ValueIdx

noncomputable section

namespace Cert.Esn

open Idealize.ShloMosaic Idealize.ShloMosaic.ValueIdx

/-- The shape of the input, the state and the result: 1024 batch rows of 4096 units. -/
abbrev SState : Shape := ⟨2, ![1024, 4096]⟩
/-- The shape of the recurrent weights: one row of 4096 weights per unit. -/
abbrev SWeight : Shape := ⟨2, ![4096, 4096]⟩

/-- The pre-activation's contraction for batch row `b` and unit `n`: the state's row `b` against the weights' row `n`. -/
def drive (s : FVec Ideal SState .f32) (w : FVec Ideal SWeight .f32) (b : Fin 1024) (n : Fin 4096) : EReal :=
  ∑ k : Fin 4096, s (ix2 b k) * w (ix2 n k)

/-- The update at batch row `b` and unit `n`: the leaky combination of the squashed pre-activation and the old state. -/
def nextAt (u s : FVec Ideal SState .f32) (w : FVec Ideal SWeight .f32) (b : Fin 1024) (n : Fin 4096) : EReal :=
  Ideal.ofBits .f32 0x3F19999A#32 * Ideal.tanh ((drive s w b n + u (ix2 b n)) + Ideal.ofBits .f32 0x3FCCCCCD#32)
    + Ideal.ofBits .f32 0x3ECCCCCD#32 * s (ix2 b n)

/-- The whole updated state: `nextAt` at each index's two coordinates. -/
def next (u s : FVec Ideal SState .f32) (w : FVec Ideal SWeight .f32) : FVec Ideal SState .f32 :=
  fun i => nextAt u s w (i 0) (i 1)

/-- At an index given by its coordinates, the updated state is `nextAt` there. -/
theorem next_ix2 (u s : FVec Ideal SState .f32) (w : FVec Ideal SWeight .f32) (b : Fin 1024) (n : Fin 4096) :
    next u s w (ix2 b n) = nextAt u s w b n := rfl

end Cert.Esn

end
-- ==== Proof.RefValue.lean ====
/-
  The reference computes the reservoir update.

  Its fourteen host operations, read at the index (b, n) one operation at a time: the transposed weights at (k, n) are
  the weights at (n, k); the contraction of the state's axis 1 with the transposed weights' axis 0 is therefore
  Σ_k s (b, k) · w (n, k), row b of the state against row n of the weights; the input and the splat of bias are added in
  that order; the host's tanh is, over the extended reals, the one tanh; the splat of leak multiplies it from the left,
  the splat of keep multiplies the state from the left, and the two products are added. That is the update, term for
  term, with the same three constant words.
-/
import proofs.«122018_g55456617726603_cont_9to1_m_175_24_alg».proof.Defs
import proofs.«122018_g55456617726603_cont_9to1_m_175_24_alg».proof.Proof.Gen.ReferenceIdeal.Read
import proofs.«122018_g55456617726603_cont_9to1_m_175_24_alg».proof.Proof.Spec

noncomputable section

namespace Cert.ReferenceIdeal.EsnValue

open Cert.ReferenceIdeal Cert.ReferenceIdeal.Gen Cert.ReferenceIdeal.Read Idealize.ShloMosaic Idealize.ShloMosaic.ValueIdx

/-- The contraction's left operand index at output (b, n) and position k: (b, k). -/
theorem lidx_eq (b : Fin 1024) (n : Fin 4096) (k : Fin 4096) : lidx_main_v1 (ix2 b n) k = ix2 b k :=
  funext fun a => Fin.ext (by match a with | ⟨0, _⟩ => rfl | ⟨1, _⟩ => rfl)

/-- Its right operand index, carried through the transpose: the weights at (n, k). -/
theorem ridx_eq (b : Fin 1024) (n : Fin 4096) (k : Fin 4096) : idx_main_v0 (ridx_main_v1 (ix2 b n) k) = ix2 n k :=
  funext fun a => Fin.ext (by match a with | ⟨0, _⟩ => rfl | ⟨1, _⟩ => rfl)

/-- The reference's result, as a function of its three arguments, is the update. -/
theorem result_eq (u s : FVec Ideal S1024x4096 .f32) (w : FVec Ideal S4096x4096 .f32) :
    val_main_v10 (F := Ideal) u s w = Cert.Esn.next u s w := by
  funext i
  obtain ⟨b, n, rfl⟩ : ∃ (b : Fin 1024) (n : Fin 4096), i = ix2 b n := ⟨i 0, i 1, eq_ix2 i⟩
  rw [Cert.Esn.next_ix2, val_main_v10_apply, val_main_v7_apply, val_main_v9_apply, val_main_v6_apply, val_main_v8_apply,
    val_main_v5_apply, val_main_v4_apply, val_main_v3_apply, val_main_v2_apply, val_main_v1_apply,
    val_main_cst_apply, val_main_cst_0_apply, val_main_cst_1_apply]
  simp only [val_main_v0_apply, lidx_eq, ridx_eq, Ideal.addf_def, Ideal.mulf_def, Ideal.ofBits_def, Ideal.hostUnary_tanh_def]
  rfl

end Cert.ReferenceIdeal.EsnValue

end
-- ==== Proof.Payloads.lean ====
/-
  The body's arithmetic read at an index, over the extended reals.

  One grid point computes a 1024 × 512 tile of the result in two halves of 256 columns. For a half, write a for
  the whole state (1024 × 4096), w for the 256 weight rows of the half (256 × 4096), x for the half's 256 columns of
  the projected input and z for the same 256 columns of the state (both 1024 × 256). At batch row r and column q of
  the half the body computes

      leak · tanh ((Σ_k a (r, k) · w (q, k) + x (r, q)) + bias) + keep · z (r, q).

  The contraction is the matrix unit's product into a zero accumulator with both operands contracted along their
  second axis, so its (r, q) entry pairs row r of a with row q of w; everything after it is pointwise. The first
  half's store holds this as one term; the second half's is split over three terms (the squashed pre-activation, the
  splat of leak, and the final combination), which are read separately here and joined where the tile is assembled.
-/
import proofs.«122018_g55456617726603_cont_9to1_m_175_24_alg».proof.Proof.Gen.KernelIdeal.Skeleton
import Idealize.ShloMosaic.Lib.ValueIdx
import Idealize.ShloMosaic.PureOps.Ideal.Laws

noncomputable section

namespace Cert.KernelIdeal.EsnPayload

open Cert.KernelIdeal Cert.KernelIdeal.Gen Idealize.ShloMosaic Idealize.ShloMosaic.ValueIdx

/-! ## The contraction -/

/-- The left operand's index at output entry (r, q) and contraction position k is (r, k): axis 0 is the output's row … -/
theorem lhs_row (j : S1024x256.Idx) (p : dot_S1024x4096_S256x4096_S1024x256_1_1_0_0_n_n.contr.Idx) :
    (dot_S1024x4096_S256x4096_S1024x256_1_1_0_0_n_n.lhsIdx j p 0).val = (j 0).val := by
  unfold DotDims.lhsIdx
  rw [dif_neg (show ¬(0 : Fin S1024x4096.rank) ∈ dot_S1024x4096_S256x4096_S1024x256_1_1_0_0_n_n.lhsBatch by decide),
    dif_pos (show (0 : Fin S1024x4096.rank) ∈ dot_S1024x4096_S256x4096_S1024x256_1_1_0_0_n_n.lhsNonContracting by decide)]
  rfl

/-- … and axis 1 the contraction position. -/
theorem lhs_col (j : S1024x256.Idx) (p : dot_S1024x4096_S256x4096_S1024x256_1_1_0_0_n_n.contr.Idx) :
    (dot_S1024x4096_S256x4096_S1024x256_1_1_0_0_n_n.lhsIdx j p 1).val = (p ⟨0, by decide⟩).val :=
  dot_S1024x4096_S256x4096_S1024x256_1_1_0_0_n_n.lhsIdx_val_of_single rfl j p

/-- The right operand's index there is (q, k): axis 0 is the output's COLUMN (the weights are contracted along their
    rows, not transposed first) … -/
theorem rhs_row (j : S1024x256.Idx) (p : dot_S1024x4096_S256x4096_S1024x256_1_1_0_0_n_n.contr.Idx) :
    (dot_S1024x4096_S256x4096_S1024x256_1_1_0_0_n_n.rhsIdx j p 0).val = (j 1).val := by
  unfold DotDims.rhsIdx
  rw [dif_neg (show ¬(0 : Fin S256x4096.rank) ∈ dot_S1024x4096_S256x4096_S1024x256_1_1_0_0_n_n.rhsBatch by decide),
    dif_pos (show (0 : Fin S256x4096.rank) ∈ dot_S1024x4096_S256x4096_S1024x256_1_1_0_0_n_n.rhsNonContracting by decide)]
  rfl

/-- … and axis 1 the contraction position. -/
theorem rhs_col (j : S1024x256.Idx) (p : dot_S1024x4096_S256x4096_S1024x256_1_1_0_0_n_n.contr.Idx) :
    (dot_S1024x4096_S256x4096_S1024x256_1_1_0_0_n_n.rhsIdx j p 1).val = (p ⟨0, by decide⟩).val :=
  dot_S1024x4096_S256x4096_S1024x256_1_1_0_0_n_n.rhsIdx_val_of_single rfl j p

/-- The product into the zero accumulator, at (r, q): row r of the state against row q of the weights. -/
theorem rowdot_apply (a : FVec Ideal S1024x4096 .f32) (w : FVec Ideal S256x4096 .f32) (r : Fin 1024) (q : Fin 256) :
    matmul dot_S1024x4096_S256x4096_S1024x256_1_1_0_0_n_n none a w (constant (F := Ideal) S1024x256 .f32 0x00000000#32) (ix2 r q)
      = ∑ k : Fin 4096, a (ix2 r k) * w (ix2 q k) := by
  refine (Ideal.matmul_constant_zero_apply dot_S1024x4096_S256x4096_S1024x256_1_1_0_0_n_n none a w (ix2 r q)).trans ?_
  rw [← Equiv.sum_comp (contrEquiv1 dot_S1024x4096_S256x4096_S1024x256_1_1_0_0_n_n 4096 rfl rfl).symm]
  refine Finset.sum_congr rfl fun k _ => ?_
  have hk := contrEquiv1_symm_val dot_S1024x4096_S256x4096_S1024x256_1_1_0_0_n_n 4096 rfl rfl k
  have el : dot_S1024x4096_S256x4096_S1024x256_1_1_0_0_n_n.lhsIdx (ix2 r q) ((contrEquiv1 dot_S1024x4096_S256x4096_S1024x256_1_1_0_0_n_n 4096 rfl rfl).symm k) = ix2 r k :=
    funext fun d => Fin.ext (by
      match d with
      | ⟨0, _⟩ => exact lhs_row _ _
      | ⟨1, _⟩ => exact (lhs_col _ _).trans hk)
  have er : dot_S1024x4096_S256x4096_S1024x256_1_1_0_0_n_n.rhsIdx (ix2 r q) ((contrEquiv1 dot_S1024x4096_S256x4096_S1024x256_1_1_0_0_n_n 4096 rfl rfl).symm k) = ix2 q k :=
    funext fun d => Fin.ext (by
      match d with
      | ⟨0, _⟩ => exact rhs_row _ _
      | ⟨1, _⟩ => exact (rhs_col _ _).trans hk)
  rw [el, er]

/-! ## The stores' payloads -/

/-- The first half's payload at (r, q): the whole update. -/
theorem pay2_apply (a : Vec Ideal S1024x4096 .f32) (w : Vec Ideal S256x4096 .f32) (x z : Vec Ideal S1024x256 .f32)
    (r : Fin 1024) (q : Fin 256) :
    k0_pay2 (F := Ideal) a w x z (ix2 r q)
      = Ideal.ofBits .f32 0x3F19999A#32
          * Ideal.tanh (((∑ k : Fin 4096, a (ix2 r k) * w (ix2 q k)) + x (ix2 r q)) + Ideal.ofBits .f32 0x3FCCCCCD#32)
        + Ideal.ofBits .f32 0x3ECCCCCD#32 * z (ix2 r q) := by
  unfold k0_pay2
  refine (addf_apply _ _ _).trans ?_
  refine congrArg₂ (· + ·) ?_ rfl
  refine (mulf_apply _ _ _).trans ?_
  refine congrArg₂ (· * ·) rfl ?_
  show Ideal.tanh (matmul dot_S1024x4096_S256x4096_S1024x256_1_1_0_0_n_n none a w (constant (F := Ideal) S1024x256 .f32 0x00000000#32) (ix2 r q) + x (ix2 r q) + Ideal.ofBits .f32 0x3FCCCCCD#32) = _
  rw [rowdot_apply]

/-- The second half's squashed pre-activation at (r, q). -/
theorem pay3_apply (a : Vec Ideal S1024x4096 .f32) (w : Vec Ideal S256x4096 .f32) (x : Vec Ideal S1024x256 .f32)
    (r : Fin 1024) (q : Fin 256) :
    k0_pay3 (F := Ideal) a w x (ix2 r q)
      = Ideal.tanh (((∑ k : Fin 4096, a (ix2 r k) * w (ix2 q k)) + x (ix2 r q)) + Ideal.ofBits .f32 0x3FCCCCCD#32) := by
  unfold k0_pay3
  show Ideal.tanh (matmul dot_S1024x4096_S256x4096_S1024x256_1_1_0_0_n_n none a w (constant (F := Ideal) S1024x256 .f32 0x00000000#32) (ix2 r q) + x (ix2 r q) + Ideal.ofBits .f32 0x3FCCCCCD#32) = _
  rw [rowdot_apply]

/-- The splat of leak reads leak everywhere. -/
theorem pay4_apply (j : S1024x256.Idx) : k0_pay4 (F := Ideal) j = Ideal.ofBits .f32 0x3F19999A#32 := rfl

/-- The second half's final combination at an index: the splat times the squashed value, plus keep times the old state. -/
theorem pay1_apply (z : Vec Ideal S1024x256 .f32) (y l : FVec Ideal S1024x256 .f32) (j : S1024x256.Idx) :
    k0_pay1 (F := Ideal) z y l j = l j * y j + Ideal.ofBits .f32 0x3ECCCCCD#32 * z j := rfl

end Cert.KernelIdeal.EsnPayload

end
-- ==== Proof.LibUnitRect.lean ====
/-
  Reading a matrix through a unit-stride rectangle.

  A unit-stride rectangle of an N0 × N1 matrix with first row o0, first column o1 and n0 × n1 entries places its own
  index (a, b) at the matrix index (o0 + a, o1 + b). This is what a load or a store through such a rectangle reads or
  writes, entry by entry: a body that handles a block in several rectangular pieces is read piece by piece with it.
  The target coordinates are taken as arbitrary indices with their values given by hypotheses, so that a caller can name
  them in whatever form its own statement uses (a literal offset, a grid coordinate's multiple, a computed offset known
  only through an equation) and never has to rewrite the rectangle itself, whose bounds proof depends on the offsets.
-/
import Idealize.ShloMosaic.Lib.ValueIdx

namespace Cert.LibUnitRect

open Idealize.ShloMosaic Idealize.ShloMosaic.ValueIdx

/-- A unit-stride rectangle of a matrix places its own index `x` at (first row + x 0, first column + x 1): for any
    matrix indices `a`, `b` with those values, `idx x = (a, b)`. -/
theorem unit_idx2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).idx x = ix2 a b := by
  funext d; apply Fin.ext
  match d with
  | ⟨0, _⟩ => show off 0 + 1 * (x 0).val = a.val; omega
  | ⟨1, _⟩ => show off 1 + 1 * (x 1).val = b.val; omega

/-- The same for the rectangle's embedding (a store's side of the same reading). -/
theorem unit_emb2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).emb x = ix2 a b :=
  unit_idx2 off size inb x a b ha hb

end Cert.LibUnitRect
-- ==== Proof.Tile.lean ====
/-
  What one grid point leaves in its output tile, as a function of the point's three input blocks.

  At point j the body sees x0, the 1024 × 512 tile of the projected input (columns 512·j … 512·j + 511); x1, the WHOLE
  state (1024 × 4096: its window never moves); and x2, the 512 weight rows of the tile (rows 512·j … 512·j + 511). It
  writes the 1024 × 512 output tile as two stores of 256 columns. At row r and column q of the tile, whichever half q
  falls in,

      tile (r, q) = leak · tanh ((Σ_k x1 (r, k) · x2 (q, k) + x0 (r, q)) + bias) + keep · x1 (r, 512·j + q):

  the first store's 256 weight rows, input columns and state columns start at 0 (state columns: at 512·j), the second's
  at 256 (state columns: at 512·j + 256), so a half's payload at its local column q' is the formula at q = q' or at
  q = 256 + q'. The two stores' rectangles tile the block, so the block the point leaves is this one function.
-/
import proofs.«122018_g55456617726603_cont_9to1_m_175_24_alg».proof.Proof.Gen.KernelIdeal.Frame
import proofs.«122018_g55456617726603_cont_9to1_m_175_24_alg».proof.Proof.Payloads
import proofs.«122018_g55456617726603_cont_9to1_m_175_24_alg».proof.Proof.LibUnitRect
import Idealize.ShloMosaic.Lib.Pipeline.Value

set_option maxRecDepth 16384

noncomputable section

namespace Cert.KernelIdeal.EsnTile

open Cert.KernelIdeal Cert.KernelIdeal.Gen Cert.KernelIdeal.EsnPayload Cert.LibUnitRect
open Idealize.ShloMosaic Idealize.ShloMosaic.ValueIdx Idealize.ShloMosaic.TcCoe Idealize.SL.Sem Idealize.ShloMosaic.Tactic

/-! ## The tile -/

/-- The tile's entry at row `r` and column `q`, from the point's blocks. -/
def tileAt (j : Fin 8) (x0 : Vec Ideal S1024x512 .f32) (x1 : Vec Ideal S1024x4096 .f32) (x2 : Vec Ideal S512x4096 .f32)
    (r : Fin 1024) (q : Fin 512) : EReal :=
  Ideal.ofBits .f32 0x3F19999A#32
      * Ideal.tanh (((∑ k : Fin 4096, x1 (ix2 r k) * x2 (ix2 q k)) + x0 (ix2 r q)) + Ideal.ofBits .f32 0x3FCCCCCD#32)
    + Ideal.ofBits .f32 0x3ECCCCCD#32 * x1 (ix2 r ⟨512 * j.val + q.val, by omega⟩)

/-- The tile as a block: `tileAt` at an index's coordinates. -/
def tile (j : Fin 8) (x0 : Vec Ideal S1024x512 .f32) (x1 : Vec Ideal S1024x4096 .f32) (x2 : Vec Ideal S512x4096 .f32) :
    Vec Ideal S1024x512 .f32 :=
  fun y => tileAt j x0 x1 x2 (y 0) (y 1)

/-- The first store's payload, at its local index, is the tile at the image of that index in the block: rows and
    columns 0 … 255 of everything it reads, the state's columns starting at 512·j. -/
theorem first_half (j : Fin 8) (x0 : Vec Ideal S1024x512 .f32) (x1 : Vec Ideal S1024x4096 .f32) (x2 : Vec Ideal S512x4096 .f32)
    (off : Fin 2 → Nat) (inbo : ∀ a, off a + S1024x256.size a ≤ S1024x4096.size a)
    (ho0 : off 0 = 0) (ho1 : off 1 = 512 * j.val) (x : S1024x256.Idx) :
    k0_pay2 (F := Ideal) (View.ld x1 (Rect.unit (s := S1024x4096) ![0, 0] S1024x4096.size inb_S1024x4096_S1024x4096_0_0))
        (View.ld x2 (Rect.unit (s := S512x4096) ![0, 0] S256x4096.size inb_S512x4096_S256x4096_0_0))
        (View.ld x0 (Rect.unit (s := S1024x512) ![0, 0] S1024x256.size inb_S1024x512_S1024x256_0_0))
        (View.ld x1 (Rect.unit (s := S1024x4096) off S1024x256.size inbo)) x
      = tile j x0 x1 x2 ((Rect.unit (s := S1024x512) ![0, 0] S1024x256.size inb_S1024x512_S1024x256_0_0).emb x) := by
  obtain ⟨r, q, rfl⟩ : ∃ (r : Fin 1024) (q : Fin 256), x = ix2 r q := ⟨x 0, x 1, eq_ix2 x⟩
  refine (pay2_apply _ _ _ _ r q).trans ?_
  have hq := q.isLt
  have eS : ∀ k : Fin 4096, (Rect.unit (s := S1024x4096) ![0, 0] S1024x4096.size inb_S1024x4096_S1024x4096_0_0).idx (ix2 r k) = ix2 r k :=
    fun k => unit_idx2 _ _ _ _ r k (by show r.val = 0 + r.val; omega) (by show k.val = 0 + k.val; omega)
  have eW : ∀ k : Fin 4096, (Rect.unit (s := S512x4096) ![0, 0] S256x4096.size inb_S512x4096_S256x4096_0_0).idx (ix2 q k) = ix2 (⟨q.val, by omega⟩ : Fin 512) k :=
    fun k => unit_idx2 _ _ _ _ _ k (by show q.val = 0 + q.val; omega) (by show k.val = 0 + k.val; omega)
  have eU : (Rect.unit (s := S1024x512) ![0, 0] S1024x256.size inb_S1024x512_S1024x256_0_0).idx (ix2 r q) = ix2 r (⟨q.val, by omega⟩ : Fin 512) :=
    unit_idx2 _ _ _ _ r _ (by show r.val = 0 + r.val; omega) (by show q.val = 0 + q.val; omega)
  have eZ : (Rect.unit (s := S1024x4096) off S1024x256.size inbo).idx (ix2 r q) = ix2 r (⟨512 * j.val + q.val, by omega⟩ : Fin 4096) :=
    unit_idx2 _ _ _ _ r _ (by show r.val = off 0 + r.val; omega) (by show 512 * j.val + q.val = off 1 + q.val; omega)
  show Ideal.ofBits .f32 0x3F19999A#32
        * Ideal.tanh (((∑ k : Fin 4096, x1 ((Rect.unit (s := S1024x4096) ![0, 0] S1024x4096.size inb_S1024x4096_S1024x4096_0_0).idx (ix2 r k))
            * x2 ((Rect.unit (s := S512x4096) ![0, 0] S256x4096.size inb_S512x4096_S256x4096_0_0).idx (ix2 q k)))
          + x0 ((Rect.unit (s := S1024x512) ![0, 0] S1024x256.size inb_S1024x512_S1024x256_0_0).idx (ix2 r q))) + Ideal.ofBits .f32 0x3FCCCCCD#32)
      + Ideal.ofBits .f32 0x3ECCCCCD#32 * x1 ((Rect.unit (s := S1024x4096) off S1024x256.size inbo).idx (ix2 r q))
    = tile j x0 x1 x2 ((Rect.unit (s := S1024x512) ![0, 0] S1024x256.size inb_S1024x512_S1024x256_0_0).idx (ix2 r q))
  rw [eU, eZ]
  simp only [eS, eW]
  rfl

/-- The second store's payload, at its local index, is the tile at the image of that index in the block: rows and
    columns 256 … 511 of everything it reads, the state's columns starting at 512·j + 256. It is stored as three terms
    (the squashed pre-activation, the splat of leak, their combination with the old state), joined here. -/
theorem second_half (j : Fin 8) (x0 : Vec Ideal S1024x512 .f32) (x1 : Vec Ideal S1024x4096 .f32) (x2 : Vec Ideal S512x4096 .f32)
    (off : Fin 2 → Nat) (inbo : ∀ a, off a + S1024x256.size a ≤ S1024x4096.size a)
    (ho0 : off 0 = 0) (ho1 : off 1 = 512 * j.val + 256) (x : S1024x256.Idx) :
    k0_pay1 (F := Ideal) (View.ld x1 (Rect.unit (s := S1024x4096) off S1024x256.size inbo))
        (k0_pay3 (F := Ideal) (View.ld x1 (Rect.unit (s := S1024x4096) ![0, 0] S1024x4096.size inb_S1024x4096_S1024x4096_0_0))
          (View.ld x2 (Rect.unit (s := S512x4096) ![256, 0] S256x4096.size inb_S512x4096_S256x4096_256_0))
          (View.ld x0 (Rect.unit (s := S1024x512) ![0, 256] S1024x256.size inb_S1024x512_S1024x256_0_256)))
        (k0_pay4 (F := Ideal)) x
      = tile j x0 x1 x2 ((Rect.unit (s := S1024x512) ![0, 256] S1024x256.size inb_S1024x512_S1024x256_0_256).emb x) := by
  obtain ⟨r, q, rfl⟩ : ∃ (r : Fin 1024) (q : Fin 256), x = ix2 r q := ⟨x 0, x 1, eq_ix2 x⟩
  refine (pay1_apply _ _ _ (ix2 r q)).trans ?_
  rw [pay4_apply, pay3_apply]
  have hq := q.isLt
  have eS : ∀ k : Fin 4096, (Rect.unit (s := S1024x4096) ![0, 0] S1024x4096.size inb_S1024x4096_S1024x4096_0_0).idx (ix2 r k) = ix2 r k :=
    fun k => unit_idx2 _ _ _ _ r k (by show r.val = 0 + r.val; omega) (by show k.val = 0 + k.val; omega)
  have eW : ∀ k : Fin 4096, (Rect.unit (s := S512x4096) ![256, 0] S256x4096.size inb_S512x4096_S256x4096_256_0).idx (ix2 q k) = ix2 (⟨256 + q.val, by omega⟩ : Fin 512) k :=
    fun k => unit_idx2 _ _ _ _ _ k (by show 256 + q.val = 256 + q.val; rfl) (by show k.val = 0 + k.val; omega)
  have eU : (Rect.unit (s := S1024x512) ![0, 256] S1024x256.size inb_S1024x512_S1024x256_0_256).idx (ix2 r q) = ix2 r (⟨256 + q.val, by omega⟩ : Fin 512) :=
    unit_idx2 _ _ _ _ r _ (by show r.val = 0 + r.val; omega) (by show 256 + q.val = 256 + q.val; rfl)
  have eZ : (Rect.unit (s := S1024x4096) off S1024x256.size inbo).idx (ix2 r q) = ix2 r (⟨512 * j.val + (256 + q.val), by omega⟩ : Fin 4096) :=
    unit_idx2 _ _ _ _ r _ (by show r.val = off 0 + r.val; omega) (by show 512 * j.val + (256 + q.val) = off 1 + q.val; omega)
  show Ideal.ofBits .f32 0x3F19999A#32
        * Ideal.tanh (((∑ k : Fin 4096, x1 ((Rect.unit (s := S1024x4096) ![0, 0] S1024x4096.size inb_S1024x4096_S1024x4096_0_0).idx (ix2 r k))
            * x2 ((Rect.unit (s := S512x4096) ![256, 0] S256x4096.size inb_S512x4096_S256x4096_256_0).idx (ix2 q k)))
          + x0 ((Rect.unit (s := S1024x512) ![0, 256] S1024x256.size inb_S1024x512_S1024x256_0_256).idx (ix2 r q))) + Ideal.ofBits .f32 0x3FCCCCCD#32)
      + Ideal.ofBits .f32 0x3ECCCCCD#32 * x1 ((Rect.unit (s := S1024x4096) off S1024x256.size inbo).idx (ix2 r q))
    = tile j x0 x1 x2 ((Rect.unit (s := S1024x512) ![0, 256] S1024x256.size inb_S1024x512_S1024x256_0_256).idx (ix2 r q))
  rw [eU, eZ]
  simp only [eS, eW]
  rfl

/-! ## The block the point leaves -/

/-- Where the two halves read the state's own columns: rows from 0, columns from 512·j (first half) or 512·j + 256
    (second), by the closed form of the offsets the body computes from the grid coordinate. -/
theorem state_cols (i : grid0.Coords) (h : Fin 2) :
    k0_off1 i (BitVec.ofNat 32 (256 * h.val)) 0 = 0
      ∧ k0_off1 i (BitVec.ofNat 32 (256 * h.val)) 1 = 512 * (i 0).val + 256 * h.val := by
  rw [k0_off1_eq]; exact ⟨rfl, rfl⟩

/-- What the body leaves in the output's staging buffer at a point is the tile of the point's three input blocks:
    its two stores cover the block, and each holds the tile's entries under its rectangle. -/
theorem out_eq_tile (c : Dev nD) (i : grid0.Coords) (arg1 : Memref sig .tc .vmem S1024x512 .f32) (harg1 : arg1.IsWhole)
    (arg2 : Memref sig .tc .vmem S1024x4096 .f32) (harg2 : arg2.IsWhole) (arg3 : Memref sig .tc .vmem S512x4096 .f32) (harg3 : arg3.IsWhole)
    (arg4 : Memref sig .tc .vmem S1024x512 .f32) (harg4 : arg4.IsWhole)
    (x0 : Vec Ideal S1024x512 .f32) (x1 : Vec Ideal S1024x4096 .f32) (x2 : Vec Ideal S512x4096 .f32) :
    out0_A_3 (F := Ideal) c i arg1 harg1 arg2 harg2 arg3 harg3 arg4 harg4 x0 x1 x2 = tile (i 0) x0 x1 x2 := by
  funext y
  unfold out0_A_3
  rw [View.read_writes_eq_canon _ _ _ (cover0_A_3 c i arg1 harg1 arg2 harg2 arg3 harg3 arg4 harg4 x0 x1 x2)]
  refine View.canon_apply_of_pieces (tile (i 0) x0 x1 x2) _ ?_ y (cover0_A_3 c i arg1 harg1 arg2 harg2 arg3 harg3 arg4 harg4 x0 x1 x2 y)
  unfold kernelRun0_A
  dsimp only
  sl_unfold_words
  simp only [View.readAt_eq_ld, harg1.read_unread, harg2.read_unread, harg3.read_unread]
  intro p hp
  rcases List.mem_cons.mp hp with rfl | hp
  · intro x
    exact second_half (i 0) x0 x1 x2 _ _ (state_cols i 1).1 (state_cols i 1).2 x
  rcases List.mem_cons.mp hp with rfl | hp
  · intro x
    exact first_half (i 0) x0 x1 x2 _ _ (state_cols i 0).1 (state_cols i 0).2 x
  · exact absurd hp List.not_mem_nil

end Cert.KernelIdeal.EsnTile

end
-- ==== Proof.KernelValue.lean ====
/-
  The idealized kernel's result array is the reservoir update of its three arguments.

  The grid has 8 points; point t stages columns 512·t … 512·t + 511 of the projected input, the whole state (a window
  that never moves) and rows 512·t … 512·t + 511 of the weights, and writes back columns 512·t … 512·t + 511 of the
  result. With those blocks the tile the body leaves (row r, column q) is

      leak · tanh ((Σ_k s (r, k) · w (512·t + q, k) + u (r, 512·t + q)) + bias) + keep · s (r, 512·t + q),

  which is the update at (r, 512·t + q): what point t writes back is its block of the update of the whole arrays. The 8
  blocks tile the 4096 columns (column n lies in the block of point n / 512), so after the run the result array is the
  update everywhere, and the three arguments are as launched.
-/
import proofs.«122018_g55456617726603_cont_9to1_m_175_24_alg».proof.Defs
import proofs.«122018_g55456617726603_cont_9to1_m_175_24_alg».proof.Proof.Gen.KernelIdeal.Value
import proofs.«122018_g55456617726603_cont_9to1_m_175_24_alg».proof.Proof.Spec
import proofs.«122018_g55456617726603_cont_9to1_m_175_24_alg».proof.Proof.Tile

set_option maxRecDepth 16384

noncomputable section

namespace Cert.KernelIdeal.EsnValue

open Cert.KernelIdeal Cert.KernelIdeal.Gen Cert.KernelIdeal.EsnTile
open Idealize.ShloMosaic Idealize.ShloMosaic.ValueIdx Idealize.ShloMosaic.TcCoe Idealize.SL.Sem
open Idealize.ShloMosaic.Pipeline (Dat)

/-! ## A tile of blocks cut from the arrays -/

/-- If the input block is columns 512·j … of `u`, the state block all of `s`, and the weight block rows 512·j … of `w`,
    the tile's entry (r, q) is the update of `u`, `s`, `w` at (r, 512·j + q). -/
theorem tile_of_blocks (j : Fin 8) (u s : FVec Ideal Cert.Esn.SState .f32) (w : FVec Ideal Cert.Esn.SWeight .f32)
    (x0 : Vec Ideal S1024x512 .f32) (x1 : Vec Ideal S1024x4096 .f32) (x2 : Vec Ideal S512x4096 .f32)
    (h0 : ∀ (r : Fin 1024) (q : Fin 512), x0 (ix2 r q) = u (ix2 r (⟨512 * j.val + q.val, by omega⟩ : Fin 4096)))
    (h1 : ∀ (r : Fin 1024) (k : Fin 4096), x1 (ix2 r k) = s (ix2 r k))
    (h2 : ∀ (q : Fin 512) (k : Fin 4096), x2 (ix2 q k) = w (ix2 (⟨512 * j.val + q.val, by omega⟩ : Fin 4096) k))
    (r : Fin 1024) (q : Fin 512) :
    tileAt j x0 x1 x2 r q = Cert.Esn.nextAt u s w r ⟨512 * j.val + q.val, by omega⟩ := by
  unfold tileAt Cert.Esn.nextAt Cert.Esn.drive
  simp only [h0, h1, h2]

/-! ## The windows' index maps -/

/-- The printed index maps, decided over the 8 grid points: at point t the input's and the result's block index is
    (0, t), the state's (0, 0), the weights' (t, 0); and the point's grid coordinate is t. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ ((grid0.coords t) 0).val = t.val :=
  (by decide +kernel : ∀ t : Fin grid0.N, _)

/-- Every one of the 8 column blocks of the result is some point's. -/
theorem idx_onto : ∀ q : Fin 8, ∃ t : Fin cfg0.N, win0_3.index t (0 : Fin 2) = 0 ∧ win0_3.index t (1 : Fin 2) = q.val :=
  (by decide +kernel : ∀ q : Fin 8, ∃ t : Fin grid0.N, win0_3.index t (0 : Fin 2) = 0 ∧ win0_3.index t (1 : Fin 2) = q.val)

variable (m : (ℓ : Loc nD τ sig) → Buf (Elt Ideal) ℓ) (ρ : Dev nD → PrngReg)

/-! ## What a point writes back -/

/-- What point `t` writes back is block `t` of the update of the argument arrays as the region finds them. -/
theorem flushed_eq (c : Dev nD) (t : Fin cfg0.N) :
    (dats m 0 c).flushed 3 t = ((cfg0.win 3).blk t).view.read (Elt Ideal)
      (Cert.Esn.next (V m c main_arg0) (V m c main_arg1) (V m c main_arg2)) := by
  rw [Cert.KernelIdeal.Value.flushed3_A]
  rw [out_eq_tile c (grid0.coords t) (ms0_0 t) (hs0_0 t) (ms0_1 t) (hs0_1 t) (ms0_2 t) (hs0_2 t) (ms0_3 t) (hs0_3 t)
    (iblk m c 0 t) (iblk m c 1 t) (iblk m c 2 t)]
  obtain ⟨e00, e01, e10, e11, e20, e21, e30, e31, eg⟩ := idx_facts t
  have hj : ((grid0.coords t) 0).val < 8 := ((grid0.coords t) 0).isLt
  funext y
  obtain ⟨r, q, rfl⟩ : ∃ (r : Fin 1024) (q : Fin 512), y = ix2 r q := ⟨y 0, y 1, eq_ix2 y⟩
  have hq := q.isLt
  have hemb : ((cfg0.win 3).blk t).view.emb (ix2 r q)
      = ix2 r (⟨512 * ((grid0.coords t) 0).val + q.val, by omega⟩ : Fin 4096) := by
    funext a; apply Fin.ext
    match a with
    | ⟨0, _⟩ => show win0_3.index t (0 : Fin 2) * 1024 + 1 * r.val = r.val; omega
    | ⟨1, _⟩ => show win0_3.index t (1 : Fin 2) * 512 + 1 * q.val = 512 * ((grid0.coords t) 0).val + q.val; omega
  show tileAt ((grid0.coords t) 0) (iblk m c 0 t) (iblk m c 1 t) (iblk m c 2 t) r q
      = Cert.Esn.next (V m c main_arg0) (V m c main_arg1) (V m c main_arg2) (((cfg0.win 3).blk t).view.emb (ix2 r q))
  rw [hemb, Cert.Esn.next_ix2]
  refine tile_of_blocks ((grid0.coords t) 0) (V m c main_arg0) (V m c main_arg1) (V m c main_arg2)
    (iblk m c 0 t) (iblk m c 1 t) (iblk m c 2 t) (fun r' q' => ?_) (fun r' k => ?_) (fun q' k => ?_) r q
  · -- the input's block: columns 512·t … of the projected input
    have hq' := q'.isLt
    show V m c main_arg0 (((cfg0.win 0).blk t).view.emb (ix2 r' q'))
        = V m c main_arg0 (ix2 r' (⟨512 * ((grid0.coords t) 0).val + q'.val, by omega⟩ : Fin 4096))
    refine congrArg (V m c main_arg0) ?_
    funext a; apply Fin.ext
    match a with
    | ⟨0, _⟩ => show win0_0.index t (0 : Fin 2) * 1024 + 1 * r'.val = r'.val; omega
    | ⟨1, _⟩ => show win0_0.index t (1 : Fin 2) * 512 + 1 * q'.val = 512 * ((grid0.coords t) 0).val + q'.val; omega
  · -- the state's block: the whole state
    show V m c main_arg1 (((cfg0.win 1).blk t).view.emb (ix2 r' k)) = V m c main_arg1 (ix2 r' k)
    refine congrArg (V m c main_arg1) ?_
    funext a; apply Fin.ext
    match a with
    | ⟨0, _⟩ => show win0_1.index t (0 : Fin 2) * 1024 + 1 * r'.val = r'.val; omega
    | ⟨1, _⟩ => show win0_1.index t (1 : Fin 2) * 4096 + 1 * k.val = k.val; omega
  · -- the weights' block: rows 512·t … of the weights
    have hq' := q'.isLt
    show V m c main_arg2 (((cfg0.win 2).blk t).view.emb (ix2 q' k))
        = V m c main_arg2 (ix2 (⟨512 * ((grid0.coords t) 0).val + q'.val, by omega⟩ : Fin 4096) k)
    refine congrArg (V m c main_arg2) ?_
    funext a; apply Fin.ext
    match a with
    | ⟨0, _⟩ => show win0_2.index t (0 : Fin 2) * 512 + 1 * q'.val = 512 * ((grid0.coords t) 0).val + q'.val; omega
    | ⟨1, _⟩ => show win0_2.index t (1 : Fin 2) * 4096 + 1 * k.val = k.val; omega

/-! ## The blocks cover the result -/

/-- An index of the result is in point `t`'s block iff each coordinate is in the block's range on its axis. -/
theorem mem_blk (t : Fin cfg0.N) (i : S1024x4096.Idx) :
    i ∈ ((cfg0.win 3).blk t).view.set ↔ ∀ a : Fin 2, win0_3.index t a * S1024x512.size a ≤ (i a).val
      ∧ (i a).val < win0_3.index t a * S1024x512.size a + S1024x512.size a := by
  show i ∈ ((View.whole main_v0).slice (win0_3.rect t)).set ↔ _
  rw [View.set_slice_whole, Rect.mem_set_unit]
  exact Iff.rfl

/-- Every index of the result is in the block of the point its column falls in: column n in block n / 512. -/
theorem cover (i : S1024x4096.Idx) :
    ∃ t : Fin cfg0.N, (cfg0.win 3).flush t = true ∧ i ∈ ((cfg0.win 3).blk t).view.set := by
  have hi0 : (i 0).val < 1024 := (i 0).isLt
  have hi1 : (i 1).val < 4096 := (i 1).isLt
  obtain ⟨t, e0, e1⟩ := idx_onto ⟨(i 1).val / 512, by omega⟩
  have e1' : win0_3.index t (1 : Fin 2) = (i 1).val / 512 := e1
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 512 ≤ (i 1).val ∧ (i 1).val < win0_3.index t (1 : Fin 2) * 512 + 512
    omega

/-! ## The result array, and the run -/

/-- After the run the result array is the update of the three arguments. -/
theorem final (c : Dev nD) :
    (dats m 0 c).arrAt 3 cfg0.N = Cert.Esn.next (m ((c : Thread nD τ).loc main_arg0)) (m ((c : Thread nD τ).loc main_arg1))
      (m ((c : Thread nD τ).loc main_arg2)) :=
  (dats m 0 c).arrAt_eq_of_cover 3 _ (fun t _ => flushed_eq m c t) cover

/-- Every weakly fair execution of the idealized kernel terminates with its result array at the update of the arguments
    and the arguments unchanged. -/
theorem run : θ_run defs (onTc (τ := τ) (main (F := Ideal))) ⟨m, fun _ => 0, ρ⟩ fun r => ∀ c : Dev nD,
      r.2.mem ((c : Thread nD τ).loc main_v0) = Cert.Esn.next (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.KernelIdeal.EsnValue

end
-- ==== Proof.lean ====
/-
  The proof of `Cert.Claim`: a fused reservoir-update kernel against its plain reference, over the extended reals.

  Both programs compute, for the projected input u, the reservoir state s (1024 × 4096 each) and the recurrent weights w
  (4096 × 4096), the array

      next (b, n) = leak · tanh ((Σ_k s (b, k) · w (n, k) + u (b, n)) + bias) + keep · s (b, n)

  (Proof/Spec.lean), with the same three f32 constants and the same grouping. The reference does it with whole-array
  operations: it transposes w, contracts s with the transpose, adds, squashes and combines (Proof/RefValue.lean reads
  its operations at an index). The kernel tiles the 4096 result columns over 8 grid points; a point holds the whole
  state, 512 rows of w and 512 columns of u, contracts the state against the ROWS of its weight block — so no transpose
  is ever formed — 256 rows at a time, and writes its 1024 × 512 tile in two stores (Proof/Payloads.lean: the body's
  arithmetic at an index; Proof/LibUnitRect.lean: where a unit-stride rectangle of a matrix places an entry;
  Proof/Tile.lean: the two stores tile the block with one function of the point's blocks;
  Proof/KernelValue.lean: that function is the point's block of `next`, and the 8 blocks cover the result). The two sums
  run over the same products in the same order, so nothing about the extended reals beyond the operations themselves
  is used, and the inputs' finiteness is never needed.

  The three frames: each kernel program's is its generated frame; the reference's is its generated run with the result
  forgotten. The idealization rewrote no operation, so the kernel's idealized text is its own text read over the
  extended reals and there is nothing to preserve.
-/
import proofs.«122018_g55456617726603_cont_9to1_m_175_24_alg».proof.Defs
import proofs.«122018_g55456617726603_cont_9to1_m_175_24_alg».proof.Proof.Spec
import proofs.«122018_g55456617726603_cont_9to1_m_175_24_alg».proof.Proof.RefValue
import proofs.«122018_g55456617726603_cont_9to1_m_175_24_alg».proof.Proof.KernelValue
import proofs.«122018_g55456617726603_cont_9to1_m_175_24_alg».proof.Proof.Gen.Kernel
import proofs.«122018_g55456617726603_cont_9to1_m_175_24_alg».proof.Proof.Gen.Kernel.Skeleton
import proofs.«122018_g55456617726603_cont_9to1_m_175_24_alg».proof.Proof.Gen.Kernel.Launch
import proofs.«122018_g55456617726603_cont_9to1_m_175_24_alg».proof.Proof.Gen.Kernel.Points
import proofs.«122018_g55456617726603_cont_9to1_m_175_24_alg».proof.Proof.Gen.Kernel.Frame
import proofs.«122018_g55456617726603_cont_9to1_m_175_24_alg».proof.Proof.Gen.KernelIdeal
import proofs.«122018_g55456617726603_cont_9to1_m_175_24_alg».proof.Proof.Gen.KernelIdeal.Skeleton
import proofs.«122018_g55456617726603_cont_9to1_m_175_24_alg».proof.Proof.Gen.KernelIdeal.Launch
import proofs.«122018_g55456617726603_cont_9to1_m_175_24_alg».proof.Proof.Gen.KernelIdeal.Points
import proofs.«122018_g55456617726603_cont_9to1_m_175_24_alg».proof.Proof.Gen.KernelIdeal.Frame
import proofs.«122018_g55456617726603_cont_9to1_m_175_24_alg».proof.Proof.Gen.KernelIdeal.Value
import proofs.«122018_g55456617726603_cont_9to1_m_175_24_alg».proof.Proof.Gen.ReferenceIdeal
import proofs.«122018_g55456617726603_cont_9to1_m_175_24_alg».proof.Proof.Gen.ReferenceIdeal.Run
import proofs.«122018_g55456617726603_cont_9to1_m_175_24_alg».proof.Proof.Gen.ReferenceIdeal.Read
import proofs.«122018_g55456617726603_cont_9to1_m_175_24_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten, so there is no rewrite to justify. -/
theorem preserves : Cert.preserves_Kernel_KernelIdeal := trivial

/-- From memories that agree on u, s and w, the kernel's result array ends at `next u s w` (its tiles cover the array) and
    the reference's at its operations' composed term of the same arguments, which read index by index is `next u s w`. -/
theorem algebraic : Cert.algebraic_KernelIdeal_ReferenceIdeal := by
  intro m ρ m' ρ' _ hagree
  refine ⟨fun c => Cert.Esn.next (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.KernelIdeal.EsnValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v10_eq _ _ _).trans (Cert.ReferenceIdeal.EsnValue.result_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
